-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S32768x128 : Shape := ⟨2, ![32768, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn {F : FTy → Type} [FloatOps F] (main_arg0 : FVec F S8192x128 .f32) (main_arg1 : FVec F S32768x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  main_v8
-- ==== Kernel.lean ====
abbrev S8192x128 : Shape := ⟨2, ![8192, 128]⟩
abbrev S32768x128 : Shape := ⟨2, ![32768, 128]⟩
abbrev S8192x32768 : Shape := ⟨2, ![8192, 32768]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S32768x128, .f32⟩
  | .hbm, ⟨2, _⟩ => ⟨S8192x32768, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1024x2048, .f32⟩
  | .local _ .vmem, ⟨5, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  reduces_S1024x128_S1024 : S1024x128.Reduces [1] S1024
  shapeCasts_S1024_S1024x1 : S1024.ShapeCasts S1024x1
  reduces_S2048x128_S2048 : S2048x128.Reduces [1] S2048
  shapeCasts_S2048_S1x2048 : S2048.ShapeCasts S1x2048
  bitsLt_bf16_f32 : FTy.bits .bf16 < FTy.bits .f32
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .f32 = 32 ∨ (Rect.block (s := S32768x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x32768.size a
  hwx0_2 : ∀ i : grid0.Coords, EltTy.bits .f32 = 32 ∨ (Rect.block (s := S8192x32768) S1024x2048.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S32768x128 : Shape := ⟨2, ![32768, 128]⟩
abbrev S_ : Shape := ⟨0, ![]⟩
abbrev S8192 : Shape := ⟨1, ![8192]⟩
abbrev S8192x1 : Shape := ⟨2, ![8192, 1]⟩
abbrev S32768 : Shape := ⟨1, ![32768]⟩
abbrev S8192x32768 : Shape := ⟨2, ![8192, 32768]⟩
abbrev S1x32768 : Shape := ⟨2, ![1, 32768]⟩

abbrev nBuf : Space → Nat
  | .hbm => 22
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S32768x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S32768x128, .f32⟩
  | .hbm, ⟨7, _⟩ => ⟨S_, .f32⟩
  | .hbm, ⟨8, _⟩ => ⟨S32768, .f32⟩
  | .hbm, ⟨9, _⟩ => ⟨S8192x32768, .f32⟩
  | .hbm, ⟨10, _⟩ => ⟨S1x32768, .f32⟩
  | .hbm, ⟨11, _⟩ => ⟨S8192x32768, .f32⟩
  | .hbm, ⟨12, _⟩ => ⟨S8192x32768, .f32⟩
  | .hbm, ⟨13, _⟩ => ⟨S8192x32768, .f32⟩
  | .hbm, ⟨14, _⟩ => ⟨S_, .f32⟩
  | .hbm, ⟨15, _⟩ => ⟨S8192x32768, .f32⟩
  | .hbm, ⟨16, _⟩ => ⟨S8192x32768, .f32⟩
  | .hbm, ⟨17, _⟩ => ⟨S8192x32768, .f32⟩
  | .hbm, ⟨18, _⟩ => ⟨S_, .f32⟩
  | .hbm, ⟨19, _⟩ => ⟨S8192x32768, .f32⟩
  | .hbm, ⟨20, _⟩ => ⟨S8192x32768, .f32⟩
  | .hbm, ⟨21, _⟩ => ⟨S8192x32768, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  reducesTo_S32768x128_S32768_d1 : S32768x128.ReducesTo [1] S32768
  bcast_S32768_S1x32768_1 : S32768.BroadcastsInDim S1x32768 (![1] : Fin 1 → Fin S1x32768.rank)
  bcast_S8192x1_S8192x32768_0_1 : S8192x1.BroadcastsInDim S8192x32768 (![0, 1] : Fin 2 → Fin S8192x32768.rank)
  bcast_S1x32768_S8192x32768_0_1 : S1x32768.BroadcastsInDim S8192x32768 (![0, 1] : Fin 2 → Fin S8192x32768.rank)
  bcast_S_S8192x32768 : S_.BroadcastsInDim S8192x32768 (![] : Fin 0 → Fin S8192x32768.rank)
  dot_S8192x128_S32768x128_S8192x32768_1_1_0_0_n_n_wf : DotDims.WF S8192x128 S32768x128 S8192x32768 [1] [1] [0] [0] [] []

variable [Facts₀]

def dot_S8192x128_S32768x128_S8192x32768_1_1_0_0_n_n : DotDims S8192x128 S32768x128 S8192x32768 where
  lhsContracting := [1]
  rhsContracting := [1]
  lhsNonContracting := [0]
  rhsNonContracting := [0]
  lhsBatch := []
  rhsBatch := []
  wf := dot_S8192x128_S32768x128_S8192x32768_1_1_0_0_n_n_wf

class Facts : Prop extends Facts₀ where

variable [Facts]
-- ==== Proof.Spec.lean ====
/-
  The pairwise Euclidean distance matrix as ONE function of its two arguments, on the extended reals.

  For a matrix of queries `q` (8192 rows of 128 entries) and a matrix of references `r` (32768 rows of 128
  entries) the entry at `(a, b)` is the distance of query row `a` from reference row `b`, computed through the
  expansion of the square:

      dist q r (a, b) = √ max (‖q_a‖² + ‖r_b‖² − 2 · ⟨q_a, r_b⟩) 0,

  with `‖u‖² = ∑ k, u k · u k` and `⟨u, v⟩ = ∑ k, u k · v k` over the 128 coordinates. Both programs compute exactly this
  expression, in this association; what differs between them is only how the three sums are laid out (row sums as
  a column and as a row that are broadcast, the inner products as one matrix product, the whole computed tile by
  tile or at once), and none of that is visible in the value of an entry. No law of arithmetic beyond `0 + x = x`
  is used, so the statement holds at the infinities too.
-/
import Idealize.ShloMosaic.PureOps.Ideal
import Idealize.ShloMosaic.Lib.ValueIdx

noncomputable section

namespace Cert.Dist

open Idealize.ShloMosaic Idealize.ShloMosaic.ValueIdx

/-- The distance of two rows of 128 extended reals by the expanded square: the square root of
    `‖u‖² + ‖v‖² − 2 ⟨u, v⟩` clipped below at zero. The two float constants are kept as the words the programs
    write (`2.0` and `0.0`): both programs hold the same words, so they are never evaluated. -/
def rowDist (u v : Fin 128 → EReal) : EReal :=
  Ideal.sqrt (max (((∑ k : Fin 128, u k * u k) + (∑ k : Fin 128, v k * v k))
      - Ideal.ofBits .f32 0x40000000#32 * (∑ k : Fin 128, u k * v k)) (Ideal.ofBits .f32 0x00000000#32))

/-- The whole distance matrix: entry `(a, b)` is the distance of row `a` of `q` from row `b` of `r`. -/
def dist (q : FVec Ideal ⟨2, ![8192, 128]⟩ .f32) (r : FVec Ideal ⟨2, ![32768, 128]⟩ .f32) :
    FVec Ideal ⟨2, ![8192, 32768]⟩ .f32 :=
  fun i => rowDist (fun k => q (ix2 (n0 := 8192) (n1 := 128) (i 0) k)) (fun k => r (ix2 (n0 := 32768) (n1 := 128) (i 1) k))

/-- The matrix at an index given by its two coordinates. -/
theorem dist_ix2 (q : FVec Ideal ⟨2, ![8192, 128]⟩ .f32) (r : FVec Ideal ⟨2, ![32768, 128]⟩ .f32) (a : Fin 8192) (b : Fin 32768) :
    dist q r (ix2 a b) = rowDist (fun k => q (ix2 a k)) (fun k => r (ix2 b k)) := rfl

end Cert.Dist

end
-- ==== Proof.LibColumn.lean ====
/-
  A column of row values laid out for a `keepdims` sum: a vector of `a` values recast as an `[a, 1]` column, and such a
  column broadcast along its unit axis to an `[a, b]` matrix — each read at an index given by its coordinates. (The
  companion row forms, `[a] → [1, a]` and `[1, b] → [a, b]`, are in the library.)
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Tile.lean ====
/-
  One tile of the distance matrix: what the kernel's body computes from a block of 1024 query rows and a block of
  2048 reference rows, read at an entry `(p, c)` of the 1024 × 2048 tile.

  The body forms the row sums of squares of both blocks by a lane reduction, lays the queries' sums out as a column
  and the references' as a row and broadcasts both over the tile, forms all inner products by one matrix product
  contracting the 128 coordinates (into a zero accumulator; the rounding of its operands to a narrower format is the
  identity on the extended reals), and combines them entry by entry. Read at `(p, c)`: the column gives the sum of
  squares of query row `p`, the row that of reference row `c`, the product the inner product of the two rows — so the
  entry is the distance of row `p` of the first block from row `c` of the second (`Cert.Dist.rowDist`).
-/
import proofs.«101171_j86517821213754_2_alg».proof.Proof.Gen.KernelIdeal.Skeleton
import proofs.«101171_j86517821213754_2_alg».proof.Proof.Spec
import proofs.«101171_j86517821213754_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Dist
open Facts₀

/-- The record of the tile's matrix product: both operands contract their second axis. -/
abbrev D := dot_S1024x128_S2048x128_S1024x2048_1_1_0_0_n_n

/-! ## The row sums -/

/-- A lane reduction of a block of `a` rows of 128 entries, read at row `p`, is the sum of the row's 128 entries. -/
theorem rowSum {a : ℕ} (x : FVec Ideal ⟨2, ![a, 128]⟩ .f32) (h : (⟨2, ![a, 128]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin 128, x (ix2 p k) := by
  refine (Ideal.multiReduction_add_single x _ h hφ hacc (ix1 p)).trans ?_
  refine Finset.sum_congr rfl fun k _ => ?_
  exact congrArg x (funext fun b => Fin.ext (by match b with | ⟨0, _⟩ => rfl | ⟨1, _⟩ => rfl))

/-! ## The inner products -/

theorem lhs0 (i : S1024x2048.Idx) (q : D.contr.Idx) : (D.lhsIdx i q 0).val = (i 0).val := by
  unfold DotDims.lhsIdx
  rw [dif_neg (show ¬(0 : Fin S1024x128.rank) ∈ D.lhsBatch by decide), dif_pos (show (0 : Fin S1024x128.rank) ∈ D.lhsNonContracting by decide)]
  rfl
theorem lhs1 (i : S1024x2048.Idx) (q : D.contr.Idx) : (D.lhsIdx i q 1).val = (q ⟨0, by decide⟩).val :=
  D.lhsIdx_val_of_single rfl i q
theorem rhs0 (i : S1024x2048.Idx) (q : D.contr.Idx) : (D.rhsIdx i q 0).val = (i 1).val := by
  unfold DotDims.rhsIdx
  rw [dif_neg (show ¬(0 : Fin S2048x128.rank) ∈ D.rhsBatch by decide), dif_pos (show (0 : Fin S2048x128.rank) ∈ D.rhsNonContracting by decide)]
  rfl
theorem rhs1 (i : S1024x2048.Idx) (q : D.contr.Idx) : (D.rhsIdx i q 1).val = (q ⟨0, by decide⟩).val :=
  D.rhsIdx_val_of_single rfl i q

/-- The tile's matrix product into a zero accumulator, read at `(p, c)`: the inner product of row `p` of the left block
    and row `c` of the right block over the 128 contracted coordinates. -/
theorem cross {φ₁ φ₂ : FTy} (l : FVec Ideal S1024x128 φ₁) (r : FVec Ideal S2048x128 φ₂) (p : Fin 1024) (c : Fin 2048) :
    matmul D none l r (constant S1024x2048 .f32 0x00000000#32) (ix2 p c) = ∑ k : Fin 128, l (ix2 p k) * r (ix2 c k) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p c) ((contrEquiv1 D 128 rfl rfl).symm k) = ix2 p k := funext fun b => Fin.ext (by
    match b with
    | ⟨0, _⟩ => exact lhs0 _ _
    | ⟨1, _⟩ => exact (lhs1 _ _).trans hk)
  have er : D.rhsIdx (ix2 p c) ((contrEquiv1 D 128 rfl rfl).symm k) = ix2 c k := funext fun b => Fin.ext (by
    match b with
    | ⟨0, _⟩ => exact rhs0 _ _
    | ⟨1, _⟩ => exact (rhs1 _ _).trans hk)
  rw [el, er]

/-! ## The tile -/

/-- THE TILE AT AN ENTRY: the body's result for blocks `x0` (1024 query rows) and `x1` (2048 reference rows), at
    `(p, c)`, is the distance of row `p` of `x0` from row `c` of `x1`. -/
theorem pay_apply (x0 : Vec Ideal S1024x128 .f32) (x1 : Vec Ideal S2048x128 .f32) (p : Fin 1024) (c : Fin 2048) :
    k0_pay1 (F := Ideal) x0 x1 (ix2 p c) = rowDist (fun k => x0 (ix2 p k)) (fun k => x1 (ix2 c k)) := by
  unfold k0_pay1 rowDist
  refine congrArg Ideal.sqrt (congrArg₂ max (congrArg₂ (· - ·) (congrArg₂ (· + ·) ?_ ?_) (congrArg (_ * ·) ?_)) rfl)
  · exact ((Cert.LibColumn.broadcastTo_a1_ab_apply _ Facts₀.broadcasts_S1024x1_S1024x2048 p c).trans
      (Cert.LibColumn.shapeCast_a_a1_apply _ Facts₀.shapeCasts_S1024_S1024x1 p 0)).trans (rowSum _ _ _ _ p)
  · exact ((broadcastTo_1b_ab_apply _ Facts₀.broadcasts_S1x2048_S1024x2048 p c).trans
      (shapeCast_a_1a_apply _ Facts₀.shapeCasts_S2048_S1x2048 0 c)).trans (rowSum _ _ _ _ c)
  · exact cross _ _ p c

end Cert.KernelIdeal.Tile

end
-- ==== Proof.Whole.lean ====
/-
  From tiles to the whole matrix: after the kernel's run its output array is the distance matrix of its two
  arguments (`Cert.Dist.dist`).

  The grid has 8 × 16 points; point `t` sits at block row `t / 16` and block column `t % 16`. There the body is given rows
  `1024·(t/16) …` of the queries and rows `2048·(t%16) …` of the references, and what it leaves is written back to the
  1024 × 2048 block of the output at block position `(t/16, t%16)`. An entry `(p, c)` of that tile is the distance of the
  `p`-th of those query rows from the `c`-th of those reference rows, which is the entry of the whole distance matrix at
  row `1024·(t/16) + p`, column `2048·(t%16) + c`: the block of the distance matrix at that position. Every entry
  `(i₀, i₁)` of the output lies in the block of exactly the point `16·(i₀/1024) + i₁/2048`, so the blocks cover the array
  and the array ends holding the distance matrix everywhere.
-/
import proofs.«101171_j86517821213754_2_alg».proof.Proof.Gen.KernelIdeal.Value
import proofs.«101171_j86517821213754_2_alg».proof.Proof.Tile
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Dist
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at point `t`, decided over the 128 points: the queries' block row and the
    output's block row are `t / 16`, the references' block row and the output's block column are `t % 16`; the two
    inputs are one block wide. -/
theorem block_at : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16 :=
  (by decide +kernel : ∀ t : Fin grid0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16)

/-- A tile entry against a matrix entry: if row `j 0` of the query block is row `i 0` of the queries and row `j 1` of the
    reference block is row `i 1` of the references, the tile at `j` is the distance matrix at `i`. -/
theorem entry_eq (x0 : Vec Ideal S1024x128 .f32) (x1 : Vec Ideal S2048x128 .f32)
    (A0 : FVec Ideal S8192x128 .f32) (A1 : FVec Ideal S32768x128 .f32) (j : S1024x2048.Idx) (i : S8192x32768.Idx)
    (h0 : ∀ k : Fin 128, x0 (ix2 (n0 := 1024) (j 0) k) = A0 (ix2 (n0 := 8192) (i 0) k))
    (h1 : ∀ k : Fin 128, x1 (ix2 (n0 := 2048) (j 1) k) = A1 (ix2 (n0 := 32768) (i 1) k)) :
    k0_pay1 (F := Ideal) x0 x1 j = dist A0 A1 i := by
  refine ((congrArg (k0_pay1 (F := Ideal) x0 x1) (eq_ix2 j)).trans (Tile.pay_apply x0 x1 (j 0) (j 1))).trans ?_
  exact congrArg₂ rowDist (funext h0) (funext h1)

/-- WHAT POINT `t` WRITES BACK is block `t` of the distance matrix of the argument arrays. -/
theorem flushed_eq (c : Dev nD) (t : Fin cfg0.N) :
    (dats m 0 c).flushed 2 t = ((cfg0.win 2).blk t).view.read (Elt Ideal) (dist (V m c main_arg0) (V m c main_arg1)) := by
  rw [Value.flushed2]
  unfold out0_2
  rw [View.canon_unit_zero origin]
  simp only [View.ld_unit_zero (S := S1024x128) origin, View.ld_unit_zero (S := S2048x128) origin]
  obtain ⟨e0, e1, e2, e3, e4, e5⟩ := block_at t
  funext j
  refine entry_eq (iblk m c 0 t) (iblk m c 1 t) (V m c main_arg0) (V m c main_arg1) j (((cfg0.win 2).blk t).view.emb j)
    (fun k => ?_) (fun k => ?_)
  · show V m c main_arg0 (((cfg0.win 0).blk t).view.emb (ix2 (n0 := 1024) (j 0) k)) = _
    refine congrArg (V m c main_arg0) (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 128 + 1 * k.val = k.val
      omega
  · show V m c main_arg1 (((cfg0.win 1).blk t).view.emb (ix2 (n0 := 2048) (j 1) k)) = _
    refine congrArg (V m c main_arg1) (funext fun a => Fin.ext ?_)
    match a with
    | ⟨0, _⟩ =>
      show win0_1.index t (0 : Fin 2) * 2048 + 1 * (j 1).val = win0_2.index t (1 : Fin 2) * 2048 + 1 * (j 1).val
      omega
    | ⟨1, _⟩ =>
      show win0_1.index t (1 : Fin 2) * 128 + 1 * k.val = k.val
      omega

/-- An entry of the output is in point `t`'s block iff each coordinate is in the block's range on its axis. -/
theorem mem_blk (t : Fin cfg0.N) (i : S8192x32768.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- Every entry of the output is in some point's block: entry `(i₀, i₁)` in that of point `16·(i₀/1024) + i₁/2048`. -/
theorem cover (i : S8192x32768.Idx) : ∃ t : Fin cfg0.N, (cfg0.win 2).flush t = true ∧ i ∈ ((cfg0.win 2).blk t).view.set := by
  have hi0 : (i 0).val < 8192 := (i 0).isLt
  have hi1 : (i 1).val < 32768 := (i 1).isLt
  have hN : cfg0.N = 128 := N_0
  let t : Fin cfg0.N := ⟨(i 0).val / 1024 * 16 + (i 1).val / 2048, by rw [hN]; omega⟩
  have ht : t.val = (i 0).val / 1024 * 16 + (i 1).val / 2048 := rfl
  obtain ⟨e0, e1, e2, e3, e4, e5⟩ := block_at t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- THE OUTPUT ARRAY after the run is the distance matrix of the two argument arrays. -/
theorem final (c : Dev nD) :
    (dats m 0 c).arrAt 2 cfg0.N = dist (m ((c : Thread nD τ).loc main_arg0)) (m ((c : Thread nD τ).loc main_arg1)) :=
  (dats m 0 c).arrAt_eq_of_cover 2 (dist (V m c main_arg0) (V m c main_arg1)) (fun t _ => flushed_eq m c t) cover

/-- THE KERNEL'S RUN, read: every weakly fair execution terminates with the output at the distance matrix of the
    arguments, the arguments unchanged. -/
theorem run : θ_run defs (onTc (τ := τ) (main (F := Ideal))) ⟨m, fun _ => 0, ρ⟩ fun r => ∀ c : Dev nD,
      r.2.mem ((c : Thread nD τ).loc main_v0) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference computes the distance matrix: its result, read at an entry `(a, b)`, is the distance of row `a` of the
  queries from row `b` of the references (`Cert.Dist.dist`).

  The reference forms the squared norms of all query rows by a sum over the 128 coordinates (from the initial value
  `0`) and keeps them as an 8192 × 1 column, those of the reference rows as a 1 × 32768 row, broadcasts both over the
  whole matrix, forms every inner product by one contraction of the two matrices over their second axes, and combines
  the three entry by entry. At `(a, b)` the column gives `0 + ‖q_a‖²`, the row `0 + ‖r_b‖²`, the contraction `⟨q_a, r_b⟩`;
  `0 + x = x` on the extended reals, and the rest is the specification word for word.
-/
import proofs.«101171_j86517821213754_2_alg».proof.Proof.Gen.ReferenceIdeal.Read
import proofs.«101171_j86517821213754_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Dist

/-- The broadcast column of squared norms, at `(a, b)`: the sum of squares of query row `a`. -/
theorem q_sq (x0 : FVec Ideal S8192x128 .f32) (a : Fin 8192) (b : Fin 32768) :
    val_main_v7 (F := Ideal) x0 (ix2 a b) = ∑ k : Fin 128, x0 (ix2 a k) * x0 (ix2 a k) := by
  rw [val_main_v7_apply, val_main_v2_apply, val_main_v1_apply, val_main_cst_apply]
  show Ideal.ofBits .f32 0x00000000#32 + _ = _
  rw [Ideal.ofBits_zero_f32, zero_add]
  refine Finset.sum_congr rfl fun k _ => ?_
  have e : idx_main_v1 (idx_main_v2 (idx_main_v7 (ix2 a b))) k = ix2 a k :=
    funext fun d => Fin.ext (by match d with | ⟨0, _⟩ => rfl | ⟨1, _⟩ => rfl)
  rw [val_main_v0_apply, e]
  rfl

/-- The broadcast row of squared norms, at `(a, b)`: the sum of squares of reference row `b`. -/
theorem r_sq (x1 : FVec Ideal S32768x128 .f32) (a : Fin 8192) (b : Fin 32768) :
    val_main_v8 (F := Ideal) x1 (ix2 a b) = ∑ k : Fin 128, x1 (ix2 b k) * x1 (ix2 b k) := by
  rw [val_main_v8_apply, val_main_v6_apply, val_main_v4_apply, val_main_cst_0_apply]
  show Ideal.ofBits .f32 0x00000000#32 + _ = _
  rw [Ideal.ofBits_zero_f32, zero_add]
  refine Finset.sum_congr rfl fun k _ => ?_
  have e : idx_main_v4 (idx_main_v6 (idx_main_v8 (ix2 a b))) k = ix2 b k :=
    funext fun d => Fin.ext (by match d with | ⟨0, _⟩ => rfl | ⟨1, _⟩ => rfl)
  rw [val_main_v3_apply, e]
  rfl

/-- The contraction of the two matrices, at `(a, b)`: the inner product of query row `a` and reference row `b`. -/
theorem inner (x0 : FVec Ideal S8192x128 .f32) (x1 : FVec Ideal S32768x128 .f32) (a : Fin 8192) (b : Fin 32768) :
    val_main_v5 (F := Ideal) x0 x1 (ix2 a b) = ∑ k : Fin 128, x0 (ix2 a k) * x1 (ix2 b k) := by
  rw [val_main_v5_apply]
  refine Finset.sum_congr rfl fun k _ => ?_
  have el : lidx_main_v5 (ix2 a b) k = ix2 a k :=
    funext fun d => Fin.ext (by match d with | ⟨0, _⟩ => rfl | ⟨1, _⟩ => rfl)
  have er : ridx_main_v5 (ix2 a b) k = ix2 b k :=
    funext fun d => Fin.ext (by match d with | ⟨0, _⟩ => rfl | ⟨1, _⟩ => rfl)
  rw [el, er]

/-- THE REFERENCE'S RESULT AT AN ENTRY is the distance of the two rows. -/
theorem ref_apply (x0 : FVec Ideal S8192x128 .f32) (x1 : FVec Ideal S32768x128 .f32) (a : Fin 8192) (b : Fin 32768) :
    val_main_v15 (F := Ideal) x0 x1 (ix2 a b) = rowDist (fun k => x0 (ix2 a k)) (fun k => x1 (ix2 b k)) := by
  unfold rowDist
  show Ideal.sqrt (max ((val_main_v7 (F := Ideal) x0 (ix2 a b) + val_main_v8 (F := Ideal) x1 (ix2 a b))
      - Ideal.ofBits .f32 0x40000000#32 * val_main_v5 (F := Ideal) x0 x1 (ix2 a b)) (Ideal.ofBits .f32 0x00000000#32)) = _
  rw [q_sq, r_sq, inner]

/-- THE REFERENCE'S RESULT is the distance matrix of its two arguments. -/
theorem ref_eq (x0 : FVec Ideal S8192x128 .f32) (x1 : FVec Ideal S32768x128 .f32) :
    val_main_v15 (F := Ideal) x0 x1 = dist x0 x1 := by
  funext i
  obtain ⟨a, b, rfl⟩ : ∃ (a : Fin 8192) (b : Fin 32768), i = ix2 a b := ⟨i 0, i 1, eq_ix2 i⟩
  exact ref_apply x0 x1 a b

end Cert.ReferenceIdeal.RefValue

end
-- ==== Proof.lean ====
/-
  The proof of `Cert.Claim`: the tiled distance kernel and the reference compute the same matrix on the extended reals.

  Both programs take 8192 query rows and 32768 reference rows of 128 entries and return, at `(a, b)`,
  `√ max (‖q_a‖² + ‖r_b‖² − 2 ⟨q_a, r_b⟩) 0` (`Cert.Dist.dist`, Proof/Spec.lean). The kernel computes it tile by tile on an
  8 × 16 grid: one tile at an entry is that expression of the two blocks' rows (Proof/Tile.lean), and the tiles are the
  blocks of the whole matrix and cover it (Proof/Whole.lean, over the kernel's generated frame run). The reference
  computes it at once, and read at an entry its result is the same expression (Proof/RefValue.lean, over the
  reference's generated run). The same sums, products and constants occur on both sides in the same association, so
  the only law used is `0 + x = x` and the inputs' finiteness is never needed.

  The three frames are the generated ones (the reference's is its run with the result dropped); the idealization
  rewrote no operation, so `preserves` is `True`.
-/
import proofs.«101171_j86517821213754_2_alg».proof.Defs
import proofs.«101171_j86517821213754_2_alg».proof.Proof.Gen.Kernel
import proofs.«101171_j86517821213754_2_alg».proof.Proof.Gen.Kernel.Skeleton
import proofs.«101171_j86517821213754_2_alg».proof.Proof.Gen.Kernel.Launch
import proofs.«101171_j86517821213754_2_alg».proof.Proof.Gen.Kernel.Points
import proofs.«101171_j86517821213754_2_alg».proof.Proof.Gen.Kernel.Frame
import proofs.«101171_j86517821213754_2_alg».proof.Proof.Gen.KernelIdeal
import proofs.«101171_j86517821213754_2_alg».proof.Proof.Gen.KernelIdeal.Skeleton
import proofs.«101171_j86517821213754_2_alg».proof.Proof.Gen.KernelIdeal.Launch
import proofs.«101171_j86517821213754_2_alg».proof.Proof.Gen.KernelIdeal.Points
import proofs.«101171_j86517821213754_2_alg».proof.Proof.Gen.KernelIdeal.Frame
import proofs.«101171_j86517821213754_2_alg».proof.Proof.Gen.ReferenceIdeal
import proofs.«101171_j86517821213754_2_alg».proof.Proof.Gen.Pre_finite_inputs
import proofs.«101171_j86517821213754_2_alg».proof.Proof.Gen.KernelIdeal.Value
import proofs.«101171_j86517821213754_2_alg».proof.Proof.Gen.ReferenceIdeal.Run
import proofs.«101171_j86517821213754_2_alg».proof.Proof.Gen.ReferenceIdeal.Read
import proofs.«101171_j86517821213754_2_alg».proof.Proof.Whole
import proofs.«101171_j86517821213754_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing to preserve. -/
theorem preserves : Cert.preserves_Kernel_KernelIdeal := trivial

/-- From memories that agree on the two arguments, the kernel's output array ends at the distance matrix of its
    arguments and the reference's result at the distance matrix of its own, which are the same arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
